-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x128 : Shape := ⟨3, ![128, 2048, 128]⟩
abbrev S128x2048x32 : Shape := ⟨3, ![128, 2048, 32]⟩
abbrev S128 : Shape := ⟨1, ![128]⟩
abbrev S32 : Shape := ⟨1, ![32]⟩
abbrev S_ : Shape := ⟨0, ![]⟩

class Facts : Prop where
  bcast_S_S128x2048x128 : S_.BroadcastsInDim S128x2048x128 (![] : Fin 0 → Fin S128x2048x128.rank)
  reducesTo_S128x2048x128_S_d0_1_2 : S128x2048x128.ReducesTo [0, 1, 2] S_
  h_S_ : 0 < S_.numel
  bcast_S_S128x2048x32 : S_.BroadcastsInDim S128x2048x32 (![] : Fin 0 → Fin S128x2048x32.rank)
  reducesTo_S128x2048x32_S_d0_1_2 : S128x2048x32.ReducesTo [0, 1, 2] S_
  bcast_S_S128 : S_.BroadcastsInDim S128 (![] : Fin 0 → Fin S128.rank)
  reducesTo_S128_S_d0 : S128.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S128x2048x128 .f32) (main_arg1 : FVec F S128x2048x32 .f32) (main_arg2 : FVec F S128 .f32) (main_arg3 : FVec F S32 .f32) : IVec S_ 1 :=
  let main_v0 : FVec F S128x2048x128 .f32 := Host.absf main_arg0
  let main_cst : FVec F S_ .f32 := constant S_ .f32 0x7F800000#32
  let main_v1 : FVec F S128x2048x128 .f32 := broadcastInDim S128x2048x128 ![] bcast_S_S128x2048x128 main_cst
  let main_v2 : IVec S128x2048x128 1 := cmpf .olt main_v0 main_v1
  let main_c : IVec S_ 1 := constantI S_ 1 1#1
  let main_v3 : IVec S_ 1 := (fun x v => Host.reduce IntOp.andi x v reducesTo_S128x2048x128_S_d0_1_2 h_S_) main_v2 main_c
  let main_v4 : FVec F S128x2048x32 .f32 := Host.absf main_arg1
  let main_cst_0 : FVec F S_ .f32 := constant S_ .f32 0x7F800000#32
  let main_v5 : FVec F S128x2048x32 .f32 := broadcastInDim S128x2048x32 ![] bcast_S_S128x2048x32 main_cst_0
  let main_v6 : IVec S128x2048x32 1 := cmpf .olt main_v4 main_v5
  let main_c_1 : IVec S_ 1 := constantI S_ 1 1#1
  let main_v7 : IVec S_ 1 := (fun x v => Host.reduce IntOp.andi x v reducesTo_S128x2048x32_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S128x2048x128 : Shape := ⟨3, ![128, 2048, 128]⟩
abbrev S128x2048x32 : Shape := ⟨3, ![128, 2048, 32]⟩
abbrev S128 : Shape := ⟨1, ![128]⟩
abbrev S32 : Shape := ⟨1, ![32]⟩
abbrev S128x2048 : Shape := ⟨2, ![128, 2048]⟩
abbrev S8x2048x128 : Shape := ⟨3, ![8, 2048, 128]⟩
abbrev S8x2048x32 : Shape := ⟨3, ![8, 2048, 32]⟩
abbrev S8x2048 : Shape := ⟨2, ![8, 2048]⟩
abbrev S1x1x128 : Shape := ⟨3, ![1, 1, 128]⟩
abbrev S1x1x32 : Shape := ⟨3, ![1, 1, 32]⟩
abbrev S262144 : Shape := ⟨1, ![262144]⟩

abbrev nBuf : Space → Nat
  | .hbm => 6
  | .vmem => 8
  | .smem => 0
  | _ => 0

abbrev bufTy : (tb : Table) → Fin (tcTables nBuf tb) → BufTy
  | .hbm, ⟨0, _⟩ => ⟨S128x2048x128, .f32⟩
  | .hbm, ⟨1, _⟩ => ⟨S128x2048x32, .f32⟩
  | .hbm, ⟨2, _⟩ => ⟨S128, .f32⟩
  | .hbm, ⟨3, _⟩ => ⟨S32, .f32⟩
  | .hbm, ⟨4, _⟩ => ⟨S128x2048, .f32⟩
  | .hbm, ⟨5, _⟩ => ⟨S262144, .f32⟩
  | .local _ .vmem, ⟨0, _⟩ => ⟨S8x2048x128, .f32⟩
  | .local _ .vmem, ⟨1, _⟩ => ⟨S8x2048x128, .f32⟩
  | .local _ .vmem, ⟨2, _⟩ => ⟨S8x2048x32, .f32⟩
  | .local _ .vmem, ⟨3, _⟩ => ⟨S8x2048x32, .f32⟩
  | .local _ .vmem, ⟨4, _⟩ => ⟨S128, .f32⟩
  | .local _ .vmem, ⟨5, _⟩ => ⟨S32, .f32⟩
  | .local _ .vmem, ⟨6, _⟩ => ⟨S8x2048, .f32⟩
  | .local _ .vmem, ⟨7, _⟩ => ⟨S8x2048, .f32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x2048x128_S8x2048x128_0_0_0 : ∀ a, (![0, 0, 0] : Fin 3 → Nat) a + S8x2048x128.size a ≤ S8x2048x128.size a
  h_S8x2048x128 : 0 < S8x2048x128.numel
  inb_S8x2048x32_S8x2048x32_0_0_0 : ∀ a, (![0, 0, 0] : Fin 3 → Nat) a + S8x2048x32.size a ≤ S8x2048x32.size a
  h_S8x2048x32 : 0 < S8x2048x32.numel
  inb_S128_S128_0 : ∀ a, (![0] : Fin 1 → Nat) a + S128.size a ≤ S128.size a
  h_S128 : 0 < S128.numel
  inb_S32_S32_0 : ∀ a, (![0] : Fin 1 → Nat) a + S32.size a ≤ S32.size a
  h_S32 : 0 < S32.numel
  shapeCasts_S128_S1x1x128 : S128.ShapeCasts S1x1x128
  broadcasts_S1x1x128_S8x2048x128 : S1x1x128.Broadcasts S8x2048x128
  reduces_S8x2048x128_S8x2048 : S8x2048x128.Reduces [2] S8x2048
  shapeCasts_S32_S1x1x32 : S32.ShapeCasts S1x1x32
  broadcasts_S1x1x32_S8x2048x32 : S1x1x32.Broadcasts S8x2048x32
  reduces_S8x2048x32_S8x2048 : S8x2048x32.Reduces [2] S8x2048
  inb_S8x2048_S8x2048_0_0 : ∀ a, (![0, 0] : Fin 2 → Nat) a + S8x2048.size a ≤ S8x2048.size a
  h_S8x2048 : 0 < S8x2048.numel
  shapeCasts_S128x2048_S262144 : S128x2048.ShapeCasts S262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S128x2048x128.size a
  hwx0_0 : ∀ i : grid0.Coords, EltTy.bits .f32 = 32 ∨ (Rect.block (s := S128x2048x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x32.size a ≤ S128x2048x32.size a
  hwx0_1 : ∀ i : grid0.Coords, EltTy.bits .f32 = 32 ∨ (Rect.block (s := S128x2048x32) S8x2048x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S128x2048.size a
  hwx0_4 : ∀ i : grid0.Coords, EltTy.bits .f32 = 32 ∨ (Rect.block (s := S128x2048) S8x2048.size (cc0_transform_4 i) (hinb0_4 i)).WholeWords (EltTy.packing .f32)

variable [Facts₀]

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x2048x128 : Shape := ⟨3, ![128, 2048, 128]⟩
abbrev S128x2048x32 : Shape := ⟨3, ![128, 2048, 32]⟩
abbrev S128 : Shape := ⟨1, ![128]⟩
abbrev S32 : Shape := ⟨1, ![32]⟩
abbrev S262144x128 : Shape := ⟨2, ![262144, 128]⟩
abbrev S262144x32 : Shape := ⟨2, ![262144, 32]⟩
abbrev S1x128 : Shape := ⟨2, ![1, 128]⟩
abbrev S_ : Shape := ⟨0, ![]⟩
abbrev S262144 : Shape := ⟨1, ![262144]⟩
abbrev S1x32 : Shape := ⟨2, ![1, 32]⟩

abbrev nBuf : Space → Nat
  | .hbm => 21
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S128x2048x32, .f32⟩
  | .hbm, ⟨2, _⟩ => ⟨S128, .f32⟩
  | .hbm, ⟨3, _⟩ => ⟨S32, .f32⟩
  | .hbm, ⟨4, _⟩ => ⟨S262144x128, .f32⟩
  | .hbm, ⟨5, _⟩ => ⟨S262144x32, .f32⟩
  | .hbm, ⟨6, _⟩ => ⟨S128, .f32⟩
  | .hbm, ⟨7, _⟩ => ⟨S1x128, .f32⟩
  | .hbm, ⟨8, _⟩ => ⟨S262144x128, .f32⟩
  | .hbm, ⟨9, _⟩ => ⟨S262144x128, .f32⟩
  | .hbm, ⟨10, _⟩ => ⟨S262144x128, .f32⟩
  | .hbm, ⟨11, _⟩ => ⟨S_, .f32⟩
  | .hbm, ⟨12, _⟩ => ⟨S262144, .f32⟩
  | .hbm, ⟨13, _⟩ => ⟨S32, .f32⟩
  | .hbm, ⟨14, _⟩ => ⟨S1x32, .f32⟩
  | .hbm, ⟨15, _⟩ => ⟨S262144x32, .f32⟩
  | .hbm, ⟨16, _⟩ => ⟨S262144x32, .f32⟩
  | .hbm, ⟨17, _⟩ => ⟨S262144x32, .f32⟩
  | .hbm, ⟨18, _⟩ => ⟨S_, .f32⟩
  | .hbm, ⟨19, _⟩ => ⟨S262144, .f32⟩
  | .hbm, ⟨20, _⟩ => ⟨S262144, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S128x2048x128_S262144x128 : S128x2048x128.ShapeCasts S262144x128
  shapeCasts_S128x2048x32_S262144x32 : S128x2048x32.ShapeCasts S262144x32
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  reducesTo_S262144x32_S262144_d1 : S262144x32.ReducesTo [1] S262144

variable [Facts₀]

class Facts : Prop extends Facts₀ where

variable [Facts]
-- ==== Proof.QuadCost.lean ====
/-
  The quantity both programs compute. For a batch of trajectories, states `s : [B, 2048, 128]` and actions
  `a : [B, 2048, 32]`, and log-weights `q : [128]`, `r : [32]`, the cost of step `(b, t)` is the diagonal quadratic form
      Σ_k e^{q_k} · s_{b,t,k}²  +  Σ_k e^{r_k} · a_{b,t,k}²
  read on the extended reals (`e^{-∞} = 0`, `e^{+∞} = +∞`). One program groups a term as `e^{q_k} · (s · s)`, the other as
  `(e^{q_k} · s) · s`: multiplication of extended reals is associative at every value, infinite ones included, so no
  finiteness of the inputs is used anywhere.
-/
import Idealize.ShloMosaic.PureOps.Ideal
import Idealize.ShloMosaic.Lib.ValueIdx

noncomputable section

namespace Cert.QuadCost

open Idealize.ShloMosaic Idealize.ShloMosaic.ValueIdx

/-- The weighted sum of squares along the last axis at step `(b, t)`: `Σ_k e^{w_k} · (x_{b,t,k} · x_{b,t,k})`. -/
def wsq {B n : Nat} (w : (⟨1, ![n]⟩ : Shape).Idx → EReal) (x : (⟨3, ![B, 2048, n]⟩ : Shape).Idx → EReal)
    (b : Fin B) (t : Fin 2048) : EReal :=
  ∑ k : Fin n, Ideal.exp (w (ix1 k)) * (x (ix3 b t k) * x (ix3 b t k))

/-- The same sum with each term grouped from the left, `(e^{w_k} · x) · x`: equal term by term, by associativity. -/
theorem sum_left_grouped {B n : Nat} (w : (⟨1, ![n]⟩ : Shape).Idx → EReal) (x : (⟨3, ![B, 2048, n]⟩ : Shape).Idx → EReal)
    (b : Fin B) (t : Fin 2048) :
    ∑ k : Fin n, Ideal.exp (w (ix1 k)) * x (ix3 b t k) * x (ix3 b t k) = wsq w x b t :=
  Finset.sum_congr rfl fun _ _ => mul_assoc _ _ _

/-- The cost of every step of a batch of `B` trajectories, as a `[B, 2048]` array: state cost plus action cost. -/
def cost {B : Nat} (s : (⟨3, ![B, 2048, 128]⟩ : Shape).Idx → EReal) (a : (⟨3, ![B, 2048, 32]⟩ : Shape).Idx → EReal)
    (q : (⟨1, ![128]⟩ : Shape).Idx → EReal) (r : (⟨1, ![32]⟩ : Shape).Idx → EReal) :
    (⟨2, ![B, 2048]⟩ : Shape).Idx → EReal :=
  fun j => wsq q s (j 0) (j 1) + wsq r a (j 0) (j 1)

theorem cost_apply {B : Nat} (s : (⟨3, ![B, 2048, 128]⟩ : Shape).Idx → EReal) (a : (⟨3, ![B, 2048, 32]⟩ : Shape).Idx → EReal)
    (q : (⟨1, ![128]⟩ : Shape).Idx → EReal) (r : (⟨1, ![32]⟩ : Shape).Idx → EReal) (b : Fin B) (t : Fin 2048) :
    cost s a q r (ix2 b t) = wsq q s b t + wsq r a b t := rfl

end Cert.QuadCost

end
-- ==== Proof.KernelPayload.lean ====
/-
  What the kernel body stores, read at an index. From its four loaded blocks — states `[8, 2048, 128]`, actions
  `[8, 2048, 32]`, the two weight rows — the body forms `e^{q}` and `e^{r}`, broadcasts each row over the block, multiplies by
  the squared block and sums the last axis. On the extended reals the entry `(p, u)` of the stored `[8, 2048]` block is
      Σ_k e^{q_k} · (s_{p,u,k} · s_{p,u,k})  +  Σ_k e^{r_k} · (a_{p,u,k} · a_{p,u,k}),
  the cost function of the blocks themselves.
-/
import proofs.«111058_j3315714753077_2_alg».proof.Proof.Gen.KernelIdeal.Skeleton
import proofs.«111058_j3315714753077_2_alg».proof.Proof.QuadCost
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Hand

open Cert.KernelIdeal Cert.KernelIdeal.Gen

/-- A weight row `[n]` viewed as `[1, 1, n]` and broadcast over an `[8, 2048, n]` block reads, at `(p, u, k)`, its entry `k`. -/
theorem row_broadcast_apply {n : Nat} (w : (⟨1, ![n]⟩ : Shape).Idx → EReal)
    (h1 : (⟨1, ![n]⟩ : Shape).ShapeCasts ⟨3, ![1, 1, n]⟩) (h2 : (⟨3, ![1, 1, n]⟩ : Shape).Broadcasts ⟨3, ![8, 2048, n]⟩)
    (hn : n ≠ 1) (p : Fin 8) (u : Fin 2048) (k : Fin n) :
    broadcastTo ⟨3, ![8, 2048, n]⟩ (shapeCast ⟨3, ![1, 1, n]⟩ w h1) h2 (ix3 p u k) = w (ix1 k) := by
  refine (broadcastTo_apply _ h2 (ix3 p u k) (ix3 (0 : Fin 1) (0 : Fin 1) k) ?_).trans ?_
  · intro a
    match a with
    | ⟨0, _⟩ => rfl
    | ⟨1, _⟩ => rfl
    | ⟨2, _⟩ => exact (if_neg hn).symm
  · exact shapeCast_apply w h1 _ (ix1 k)
      (by rw [Shape.rowMajor_val_one, Shape.rowMajor_val_three]; show (k : Nat) = ((0 : Nat) * 1 + 0) * n + (k : Nat); simp)

/-- The sum over the last axis of an `[8, 2048, n]` block, at `(p, u)`, is the sum over `k` of its entries `(p, u, k)`. -/
theorem last_axis_sum_apply {n : Nat} (v : FVec Ideal ⟨3, ![8, 2048, n]⟩ .f32)
    (h : (⟨3, ![8, 2048, n]⟩ : Shape).Reduces [2] ⟨2, ![8, 2048]⟩)
    (hφ : FKind.Formats .f32) (hacc : (0x00000000#32 : BitVec 32) = FKind.add.neutral .f32 hφ) (p : Fin 8) (u : Fin 2048) :
    multiReduction .add [2] ⟨2, ![8, 2048]⟩ v 0x00000000#32 h hφ hacc (ix2 p u) = ∑ k : Fin n, v (ix3 p u k) := by
  refine (Ideal.multiReduction_add_single v _ h hφ hacc (ix2 p u)).trans ?_
  refine Finset.sum_congr rfl fun k _ => congrArg v ?_
  funext a
  apply Fin.ext
  match a with
  | ⟨0, _⟩ => rfl
  | ⟨1, _⟩ => rfl
  | ⟨2, _⟩ => rfl

/-- The stored block is the cost function of the loaded blocks. -/
theorem payload_eq (x0 : Vec Ideal S8x2048x128 .f32) (x1 : Vec Ideal S8x2048x32 .f32) (x2 : Vec Ideal S128 .f32)
    (x3 : Vec Ideal S32 .f32) :
    k0_pay1 (F := Ideal) x0 x1 x2 x3 = QuadCost.cost x0 x1 x2 x3 := by
  funext j
  obtain ⟨p, u, rfl⟩ : ∃ (p : Fin 8) (u : Fin 2048), j = ix2 p u := ⟨j 0, j 1, eq_ix2 j⟩
  unfold k0_pay1
  refine (addf_apply _ _ _).trans ?_
  refine congrArg₂ (· + ·) ?_ ?_
  · refine (last_axis_sum_apply _ _ _ _ p u).trans ?_
    refine Finset.sum_congr rfl fun k _ => ?_
    refine (mulf_apply _ _ _).trans ?_
    refine congrArg₂ (· * ·) ?_ rfl
    exact (row_broadcast_apply (n := 128) _ _ _ (by decide) p u k).trans rfl
  · refine (last_axis_sum_apply _ _ _ _ p u).trans ?_
    refine Finset.sum_congr rfl fun k _ => ?_
    refine (mulf_apply _ _ _).trans ?_
    refine congrArg₂ (· * ·) ?_ rfl
    exact (row_broadcast_apply (n := 32) _ _ _ (by decide) p u k).trans rfl

end Cert.KernelIdeal.Hand

end
-- ==== Proof.KernelBlocks.lean ====
/-
  Where each block of the kernel sits in its array. The grid has 16 points; at point `t` the state and action windows hold
  trajectories `8t … 8t + 7` whole, the two weight windows hold their whole rows, and the output window holds rows
  `8t … 8t + 7` of the `[128, 2048]` result. So the cost function of the blocks at point `t`, at block row `p`, is the cost
  function of the whole arrays at row `8t + p`.
-/
import proofs.«111058_j3315714753077_2_alg».proof.Proof.Gen.KernelIdeal.Frame
import proofs.«111058_j3315714753077_2_alg».proof.Proof.QuadCost
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (m : (ℓ : Loc nD τ sig) → Buf (Elt Ideal) ℓ)

/-- The block index of every window at every grid point: the three moving windows follow the point on the batch axis
    and sit at 0 elsewhere, the weight windows stay at 0. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = 0 ∧ win0_3.index t (0 : Fin 1) = 0
    ∧ win0_4.index t (0 : Fin 2) = t.val ∧ win0_4.index t (1 : Fin 2) = 0 :=
  (by decide +kernel : ∀ t : Fin grid0.N, _)

/-- Entry `(p, u, k)` of the state block at point `t` is entry `(8t + p, u, k)` of the state array. -/
theorem state_block_apply (c : Dev nD) (t : Fin cfg0.N) (p : Fin 8) (u : Fin 2048) (k : Fin 128) (b : Fin 128)
    (hb : b.val = 8 * t.val + p.val) :
    (iblk m c 0 t : Vec Ideal S8x2048x128 .f32) (ix3 p u k)
      = (V m c main_arg0 : S128x2048x128.Idx → EReal) (ix3 b u k) := by
  obtain ⟨e0, e1, e2, -⟩ := index_facts t
  show V m c main_arg0 (((cfg0.win 0).blk t).view.emb (ix3 p u k)) = V m c main_arg0 (ix3 b u k)
  refine congrArg (V m c main_arg0) (funext fun a => Fin.ext ?_)
  match a with
  | ⟨0, _⟩ => show win0_0.index t (0 : Fin 3) * 8 + 1 * p.val = b.val; omega
  | ⟨1, _⟩ => show win0_0.index t (1 : Fin 3) * 2048 + 1 * u.val = u.val; omega
  | ⟨2, _⟩ => show win0_0.index t (2 : Fin 3) * 128 + 1 * k.val = k.val; omega

/-- Entry `(p, u, k)` of the action block at point `t` is entry `(8t + p, u, k)` of the action array. -/
theorem action_block_apply (c : Dev nD) (t : Fin cfg0.N) (p : Fin 8) (u : Fin 2048) (k : Fin 32) (b : Fin 128)
    (hb : b.val = 8 * t.val + p.val) :
    (iblk m c 1 t : Vec Ideal S8x2048x32 .f32) (ix3 p u k)
      = (V m c main_arg1 : S128x2048x32.Idx → EReal) (ix3 b u k) := by
  obtain ⟨-, -, -, e0, e1, e2, -⟩ := index_facts t
  show V m c main_arg1 (((cfg0.win 1).blk t).view.emb (ix3 p u k)) = V m c main_arg1 (ix3 b u k)
  refine congrArg (V m c main_arg1) (funext fun a => Fin.ext ?_)
  match a with
  | ⟨0, _⟩ => show win0_1.index t (0 : Fin 3) * 8 + 1 * p.val = b.val; omega
  | ⟨1, _⟩ => show win0_1.index t (1 : Fin 3) * 2048 + 1 * u.val = u.val; omega
  | ⟨2, _⟩ => show win0_1.index t (2 : Fin 3) * 32 + 1 * k.val = k.val; omega

/-- The state-weight block at any point is the whole row. -/
theorem state_weight_block_apply (c : Dev nD) (t : Fin cfg0.N) (k : Fin 128) :
    (iblk m c 2 t : Vec Ideal S128 .f32) (ix1 k) = (V m c main_arg2 : S128.Idx → EReal) (ix1 k) := by
  obtain ⟨-, -, -, -, -, -, e0, -⟩ := index_facts t
  show V m c main_arg2 (((cfg0.win 2).blk t).view.emb (ix1 k)) = V m c main_arg2 (ix1 k)
  refine congrArg (V m c main_arg2) (funext fun a => Fin.ext ?_)
  match a with
  | ⟨0, _⟩ => show win0_2.index t (0 : Fin 1) * 128 + 1 * k.val = k.val; omega

/-- The action-weight block at any point is the whole row. -/
theorem action_weight_block_apply (c : Dev nD) (t : Fin cfg0.N) (k : Fin 32) :
    (iblk m c 3 t : Vec Ideal S32 .f32) (ix1 k) = (V m c main_arg3 : S32.Idx → EReal) (ix1 k) := by
  obtain ⟨-, -, -, -, -, -, -, e0, -⟩ := index_facts t
  show V m c main_arg3 (((cfg0.win 3).blk t).view.emb (ix1 k)) = V m c main_arg3 (ix1 k)
  refine congrArg (V m c main_arg3) (funext fun a => Fin.ext ?_)
  match a with
  | ⟨0, _⟩ => show win0_3.index t (0 : Fin 1) * 32 + 1 * k.val = k.val; omega

/-- The cost function of the blocks at point `t`, at block row `p` and step `u`, is the cost function of the arrays at row `8t + p`. -/
theorem block_cost_apply (c : Dev nD) (t : Fin cfg0.N) (p : Fin 8) (u : Fin 2048) (b : Fin 128)
    (hb : b.val = 8 * t.val + p.val) :
    QuadCost.cost (iblk m c 0 t : Vec Ideal S8x2048x128 .f32) (iblk m c 1 t : Vec Ideal S8x2048x32 .f32)
        (iblk m c 2 t : Vec Ideal S128 .f32) (iblk m c 3 t : Vec Ideal S32 .f32) (ix2 p u)
      = QuadCost.cost (V m c main_arg0 : S128x2048x128.Idx → EReal) (V m c main_arg1 : S128x2048x32.Idx → EReal)
        (V m c main_arg2 : S128.Idx → EReal) (V m c main_arg3 : S32.Idx → EReal) (ix2 b u) := by
  rw [QuadCost.cost_apply, QuadCost.cost_apply]
  unfold QuadCost.wsq
  refine congrArg₂ (· + ·) (Finset.sum_congr rfl fun k _ => ?_) (Finset.sum_congr rfl fun k _ => ?_)
  · rw [state_weight_block_apply m c t k, state_block_apply m c t p u k b hb]
  · rw [action_weight_block_apply m c t k, action_block_apply m c t p u k b hb]

end Cert.KernelIdeal.Hand

end
-- ==== Proof.KernelValue.lean ====
/-
  The kernel's run, read as a value. Each grid point writes back rows `8t … 8t + 7` of the cost array of the argument
  arrays; the sixteen row blocks tile the `[128, 2048]` result, so after the run the result array IS the cost array; the one
  host line after the call flattens it to `[262144]` in row-major order.
-/
import proofs.«111058_j3315714753077_2_alg».proof.Proof.KernelPayload
import proofs.«111058_j3315714753077_2_alg».proof.Proof.KernelBlocks
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The cost array of the argument arrays as the call finds them. -/
abbrev costOf (c : Dev nD) : S128x2048.Idx → EReal :=
  QuadCost.cost (V m c main_arg0 : S128x2048x128.Idx → EReal) (V m c main_arg1 : S128x2048x32.Idx → EReal)
    (V m c main_arg2 : S128.Idx → EReal) (V m c main_arg3 : S32.Idx → EReal)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- What point `t` writes back is block `t` of the cost array. -/
theorem flushed_eq (c : Dev nD) (t : Fin cfg0.N) :
    (dats m 0 c).flushed 4 t = ((cfg0.win 4).blk t).view.read (Elt Ideal) (costOf m c) := by
  show (cfg0.win 4).cut (grid0.coords t) ((dats m 0 c).after 4 t) = _
  rw [after0_4]
  unfold out0_4
  rw [View.canon_unit_zero zeros2]
  simp only [View.ld_unit_zero (S := S8x2048x128) zeros3, View.ld_unit_zero (S := S8x2048x32) zeros3,
    View.ld_unit_zero (S := S128) zeros1, View.ld_unit_zero (S := S32) zeros1]
  rw [payload_eq]
  obtain ⟨-, -, -, -, -, -, -, -, e0, e1⟩ := index_facts t
  have hN : cfg0.N = 16 := N_0
  have ht : t.val < cfg0.N := t.isLt
  funext j
  have hj0 : (j 0).val < 8 := (j 0).isLt
  have hj1 : (j 1).val < 2048 := (j 1).isLt
  have hb : 8 * t.val + (j 0).val < 128 := by omega
  have hemb : ((cfg0.win 4).blk t).view.emb j
      = ix2 (⟨8 * t.val + (j 0).val, hb⟩ : Fin 128) (⟨(j 1).val, hj1⟩ : Fin 2048) := by
    funext a
    apply Fin.ext
    match a with
    | ⟨0, _⟩ => show win0_4.index t (0 : Fin 2) * 8 + 1 * (j 0).val = 8 * t.val + (j 0).val; omega
    | ⟨1, _⟩ => show win0_4.index t (1 : Fin 2) * 2048 + 1 * (j 1).val = (j 1).val; omega
  show QuadCost.cost (iblk m c 0 t : Vec Ideal S8x2048x128 .f32) (iblk m c 1 t : Vec Ideal S8x2048x32 .f32)
      (iblk m c 2 t : Vec Ideal S128 .f32) (iblk m c 3 t : Vec Ideal S32 .f32)
      (ix2 (⟨(j 0).val, hj0⟩ : Fin 8) (⟨(j 1).val, hj1⟩ : Fin 2048))
    = costOf m c (((cfg0.win 4).blk t).view.emb j)
  rw [hemb]
  exact block_cost_apply m c t _ _ _ rfl

/-- An index of the result array lies in point `t`'s block iff its row is one of `8t … 8t + 7` (and its column anywhere). -/
theorem mem_block (t : Fin cfg0.N) (i : S128x2048.Idx) :
    i ∈ ((cfg0.win 4).blk t).view.set ↔ ∀ a : Fin 2, win0_4.index t a * S8x2048.size a ≤ (i a).val
      ∧ (i a).val < win0_4.index t a * S8x2048.size a + S8x2048.size a := by
  show i ∈ ((View.whole main_v0).slice (win0_4.rect t)).set ↔ _
  rw [View.set_slice_whole, Rect.mem_set_unit]
  exact Iff.rfl

/-- Every index of the result array is written back by some point: row `r` by point `r / 8`. -/
theorem covered (i : S128x2048.Idx) :
    ∃ t : Fin cfg0.N, (cfg0.win 4).flush t = true ∧ i ∈ ((cfg0.win 4).blk t).view.set := by
  have hN : cfg0.N = 16 := N_0
  have hi0 : (i 0).val < 128 := (i 0).isLt
  have hi1 : (i 1).val < 2048 := (i 1).isLt
  let t : Fin cfg0.N := ⟨(i 0).val / 8, by omega⟩
  have htv : t.val = (i 0).val / 8 := rfl
  obtain ⟨-, -, -, -, -, -, -, -, e0, e1⟩ := index_facts t
  refine ⟨t, flush0_4 t, ?_⟩
  rw [mem_block]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 2048 ≤ (i 1).val ∧ (i 1).val < win0_4.index t (1 : Fin 2) * 2048 + 2048; omega

/-- After the run the result array of the call is the cost array. -/
theorem result_array (c : Dev nD) : (dats m 0 c).arrAt 4 cfg0.N = costOf m c :=
  (dats m 0 c).arrAt_eq_of_cover 4 (costOf m c) (fun t _ => flushed_eq m c t) covered

/-- The host line after the call writes the result array flattened. -/
theorem tail_eq (c : Dev nD) :
    Pipeline.afterTail₀ cfgs (dats m) 0 (V0 m) [hostOps1] c main_v1
      = shapeCast S262144 (costOf m c) shapeCasts_S128x2048_S262144 := by
  unfold Pipeline.afterTail₀
  show StableHlo.after hostOps1 _ (Proc.devRef .tc main_v1) = _
  after_results
  exact congrArg (fun x : S128x2048.Idx → EReal => shapeCast S262144 x shapeCasts_S128x2048_S262144)
    ((Pipeline.withArrays_arr spec0 launch0.win.arr_inj c _ _ 4).trans (result_array m c))

/-- The run, read: the flattened result holds the cost array of the arguments in row-major order, and the arguments are
    unchanged. -/
theorem run : θ_run defs (onTc (τ := τ) (main (F := Ideal))) ⟨m, fun _ => 0, ρ⟩ fun r => ∀ c : Dev nD,
      r.2.mem ((c.tc : Thread nD τ).loc main_v1)
        = shapeCast S262144 (QuadCost.cost (m ((c.tc : Thread nD τ).loc main_arg0) : S128x2048x128.Idx → EReal)
            (m ((c.tc : Thread nD τ).loc main_arg1) : S128x2048x32.Idx → EReal)
            (m ((c.tc : Thread nD τ).loc main_arg2) : S128.Idx → EReal)
            (m ((c.tc : Thread nD τ).loc main_arg3) : S32.Idx → EReal)) shapeCasts_S128x2048_S262144
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Hand

end
-- ==== Proof.ReferenceValue.lean ====
/-
  What the reference computes, read at an index. It flattens states and actions to `[262144, ·]` (row `i` is trajectory
  `i / 2048`, step `i % 2048`), multiplies row-wise by `e^{q}` (resp. `e^{r}`) and then by the row again, sums the last axis
  from 0 and adds the two sums. Entry `i` of its `[262144]` result is therefore the left-grouped sum
      Σ_k (e^{q_k} · s_k) · s_k  +  Σ_k (e^{r_k} · a_k) · a_k
  at step `(i / 2048, i % 2048)`, which is the cost function's entry there; as an array it is the `[128, 2048]` cost array
  flattened in row-major order.
-/
import proofs.«111058_j3315714753077_2_alg».proof.Proof.Gen.ReferenceIdeal.Read
import proofs.«111058_j3315714753077_2_alg».proof.Proof.QuadCost
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.Hand

open Cert.ReferenceIdeal Cert.ReferenceIdeal.Gen Cert.ReferenceIdeal.Read

/-- The trajectory of flat row `i`. -/
abbrev trajOf (i : S262144.Idx) : Fin 128 :=
  ⟨(i 0).val / 2048, by have h : (i 0).val < 262144 := (i 0).isLt; omega⟩

/-- The step of flat row `i`. -/
abbrev stepOf (i : S262144.Idx) : Fin 2048 :=
  ⟨(i 0).val % 2048, by omega⟩

/-- Column `k` of flat row `i` of the reshaped states is entry `(i / 2048, i % 2048, k)` of the states. -/
theorem state_index (i : S262144.Idx) (k : Fin 128) : idx_main_v0 (idx_main_v7 i k) = ix3 (trajOf i) (stepOf i) k := by
  have h : (i 0).val < 262144 := (i 0).isLt
  have hk : k.val < 128 := k.isLt
  funext a
  apply Fin.ext
  match a with
  | ⟨0, _⟩ => show ((i 0).val * 128 + k.val) / 262144 = (i 0).val / 2048; omega
  | ⟨1, _⟩ => show ((i 0).val * 128 + k.val) / 128 % 2048 = (i 0).val % 2048; omega
  | ⟨2, _⟩ => show ((i 0).val * 128 + k.val) % 128 = k.val; omega

/-- Column `k` of flat row `i` of the reshaped actions is entry `(i / 2048, i % 2048, k)` of the actions. -/
theorem action_index (i : S262144.Idx) (k : Fin 32) : idx_main_v1 (idx_main_v13 i k) = ix3 (trajOf i) (stepOf i) k := by
  have h : (i 0).val < 262144 := (i 0).isLt
  have hk : k.val < 32 := k.isLt
  funext a
  apply Fin.ext
  match a with
  | ⟨0, _⟩ => show ((i 0).val * 32 + k.val) / 65536 = (i 0).val / 2048; omega
  | ⟨1, _⟩ => show ((i 0).val * 32 + k.val) / 32 % 2048 = (i 0).val % 2048; omega
  | ⟨2, _⟩ => show ((i 0).val * 32 + k.val) % 32 = k.val; omega

/-- The broadcast state weights at column `k` of any row are weight `k`. -/
theorem state_weight_index (i : S262144.Idx) (k : Fin 128) : idx_main_v3 (idx_main_v4 (idx_main_v7 i k)) = ix1 k := by
  funext a
  apply Fin.ext
  match a with
  | ⟨0, _⟩ => rfl

/-- The broadcast action weights at column `k` of any row are weight `k`. -/
theorem action_weight_index (i : S262144.Idx) (k : Fin 32) : idx_main_v9 (idx_main_v10 (idx_main_v13 i k)) = ix1 k := by
  funext a
  apply Fin.ext
  match a with
  | ⟨0, _⟩ => rfl

/-- The reference's result is the cost array of its arguments, flattened in row-major order. -/
theorem result_eq (x0 : S128x2048x128.Idx → EReal) (x1 : S128x2048x32.Idx → EReal) (x2 : S128.Idx → EReal)
    (x3 : S32.Idx → EReal) (h : (⟨2, ![128, 2048]⟩ : Shape).ShapeCasts ⟨1, ![262144]⟩) :
    val_main_v14 (F := Ideal) x0 x1 x2 x3 = shapeCast ⟨1, ![262144]⟩ (QuadCost.cost x0 x1 x2 x3) h := by
  funext i
  have hi : (i 0).val < 262144 := (i 0).isLt
  rw [shapeCast_apply _ h i (ix2 (trajOf i) (stepOf i))
    (by rw [Shape.rowMajor_val_two, Shape.rowMajor_val_one]; show (i 0).val / 2048 * 2048 + (i 0).val % 2048 = (i 0).val; omega)]
  rw [QuadCost.cost_apply, ← QuadCost.sum_left_grouped, ← QuadCost.sum_left_grouped]
  rw [val_main_v14_apply, val_main_v7_apply, val_main_v13_apply, val_main_cst_apply, val_main_cst_0_apply]
  simp only [val_main_v6_apply, val_main_v5_apply, val_main_v4_apply, val_main_v3_apply, val_main_v2_apply, val_main_v0_apply,
    val_main_v12_apply, val_main_v11_apply, val_main_v10_apply, val_main_v9_apply, val_main_v8_apply, val_main_v1_apply,
    state_index, action_index, state_weight_index, action_weight_index,
    Ideal.addf_def, Ideal.mulf_def, Ideal.hostUnary_exp_def, Ideal.ofBits_def, Ideal.ofBits_zero_f32, zero_add]

end Cert.ReferenceIdeal.Hand

end
-- ==== Proof.lean ====
/-
  The kernel and its reference compute the same diagonal quadratic cost. For states `s : [128, 2048, 128]`, actions
  `a : [128, 2048, 32]` and log-weights `q : [128]`, `r : [32]`, both return, for each of the 262144 steps `(b, t)` in row-major
  order, the extended real
      Σ_k e^{q_k} · s_{b,t,k}²  +  Σ_k e^{r_k} · a_{b,t,k}².
  The kernel works on blocks of eight trajectories: it squares first and weights after, `e^{q_k} · (s · s)`, sums the last
  axis, and its `[128, 2048]` result is flattened by the host. The reference flattens first, weights and then multiplies by
  the row again, `(e^{q_k} · s) · s`, and sums. The two groupings agree by associativity of the product on the extended
  reals, which holds at the infinities too; sums of the same terms over the same index set are equal; the input
  precondition is never used for the value. No operation of the kernel was rewritten for the idealized reading, so the
  idealization claim is trivial; the three termination-and-unchanged-arguments claims come from the two kernels' run
  theorems and from the reference's run.
-/
import proofs.«111058_j3315714753077_2_alg».proof.Defs
import proofs.«111058_j3315714753077_2_alg».proof.Proof.Gen.Kernel
import proofs.«111058_j3315714753077_2_alg».proof.Proof.Gen.Kernel.Skeleton
import proofs.«111058_j3315714753077_2_alg».proof.Proof.Gen.Kernel.Launch
import proofs.«111058_j3315714753077_2_alg».proof.Proof.Gen.Kernel.Points
import proofs.«111058_j3315714753077_2_alg».proof.Proof.Gen.Kernel.Frame
import proofs.«111058_j3315714753077_2_alg».proof.Proof.Gen.KernelIdeal
import proofs.«111058_j3315714753077_2_alg».proof.Proof.Gen.KernelIdeal.Skeleton
import proofs.«111058_j3315714753077_2_alg».proof.Proof.Gen.KernelIdeal.Launch
import proofs.«111058_j3315714753077_2_alg».proof.Proof.Gen.KernelIdeal.Points
import proofs.«111058_j3315714753077_2_alg».proof.Proof.Gen.KernelIdeal.Frame
import proofs.«111058_j3315714753077_2_alg».proof.Proof.Gen.ReferenceIdeal
import proofs.«111058_j3315714753077_2_alg».proof.Proof.Gen.Pre_finite_inputs
import proofs.«111058_j3315714753077_2_alg».proof.Proof.Gen.ReferenceIdeal.Run
import proofs.«111058_j3315714753077_2_alg».proof.Proof.Gen.ReferenceIdeal.Read
import proofs.«111058_j3315714753077_2_alg».proof.Proof.KernelValue
import proofs.«111058_j3315714753077_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel terminates without fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with the statement about its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the four arguments, the kernel's flattened result and the reference's result are the same
    array: the cost array of the arguments in row-major order. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v14_eq _ _ _ _).trans (Cert.ReferenceIdeal.Hand.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
